-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩

class Facts : Prop where
  bcast_S_S2x256x4096 : S_.BroadcastsInDim S2x256x4096 (![] : Fin 0 → Fin S2x256x4096.rank)
  reducesTo_S2x256x4096_S_d0_1_2 : S2x256x4096.ReducesTo [0, 1, 2] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S2x256x4096 .f32) (main_arg1 : IVec S8192x4096 32) (main_arg2 : IVec S8192x4096 32) (main_arg3 : FVec F S8192x1 .f32) (main_arg4 : FVec F S65536 .f32) : IVec S_ 1 :=
  let main_v0 : FVec F S2x256x4096 .f32 := Host.absf main_arg0
  let main_cst : FVec F S_ .f32 := constant S_ .f32 0x7F800000#32
  let main_v1 : FVec F S2x256x4096 .f32 := broadcastInDim S2x256x4096 ![] bcast_S_S2x256x4096 main_cst
  let main_v2 : IVec S2x256x4096 1 := cmpf .olt main_v0 main_v1
  let main_c : IVec S_ 1 := constantI S_ 1 1#1
  let main_v3 : IVec S_ 1 := (fun x v => Host.reduce IntOp.andi x v reducesTo_S2x256x4096_S_d0_1_2 h_S_) main_v2 main_c
  let main_v4 : FVec F S8192x1 .f32 := Host.absf main_arg3
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S65536 .f32 := Host.absf main_arg4
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩
abbrev S8192x4096x1 : Shape := ⟨3, ![8192, 4096, 1]⟩
abbrev S4096x8192 : Shape := ⟨2, ![4096, 8192]⟩
abbrev S512x4096 : Shape := ⟨2, ![512, 4096]⟩
abbrev S512x8192 : Shape := ⟨2, ![512, 8192]⟩
abbrev S2x256x8192 : Shape := ⟨3, ![2, 256, 8192]⟩
abbrev S4096x1024 : Shape := ⟨2, ![4096, 1024]⟩
abbrev S512x1024 : Shape := ⟨2, ![512, 1024]⟩

abbrev nBuf : Space → Nat
  | .hbm => 26
  | .vmem => 5
  | .smem => 0
  | _ => 0

abbrev bufTy : (tb : Table) → Fin (tcTables nBuf tb) → BufTy
  | .hbm, ⟨0, _⟩ => ⟨S2x256x4096, .f32⟩
  | .hbm, ⟨1, _⟩ => ⟨S8192x4096, .i32⟩
  | .hbm, ⟨2, _⟩ => ⟨S8192x4096, .i32⟩
  | .hbm, ⟨3, _⟩ => ⟨S8192x1, .f32⟩
  | .hbm, ⟨4, _⟩ => ⟨S65536, .f32⟩
  | .hbm, ⟨5, _⟩ => ⟨S_, .i32⟩
  | .hbm, ⟨6, _⟩ => ⟨S8192x4096, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i1⟩
  | .hbm, ⟨12, _⟩ => ⟨S_, .i32⟩
  | .hbm, ⟨13, _⟩ => ⟨S8192x4096, .i32⟩
  | .hbm, ⟨14, _⟩ => ⟨S8192x4096, .i32⟩
  | .hbm, ⟨15, _⟩ => ⟨S8192x4096, .i32⟩
  | .hbm, ⟨16, _⟩ => ⟨S8192x4096x1, .i32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S4096x8192, .f32⟩
  | .hbm, ⟨21, _⟩ => ⟨S4096x8192, .bf16⟩
  | .hbm, ⟨22, _⟩ => ⟨S512x4096, .f32⟩
  | .hbm, ⟨23, _⟩ => ⟨S512x4096, .bf16⟩
  | .hbm, ⟨24, _⟩ => ⟨S512x8192, .f32⟩
  | .hbm, ⟨25, _⟩ => ⟨S2x256x8192, .f32⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_0 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  bcast_S8192x1_S8192x4096_0_1 : S8192x1.BroadcastsInDim S8192x4096 (![0, 1] : Fin 2 → Fin S8192x4096.rank)
  transposes_S8192x4096_S4096x8192_1_0 : S8192x4096.Transposes [1, 0] S4096x8192
  bitsLt_bf16_f32 : FTy.bits .bf16 < FTy.bits .f32
  shapeCasts_S2x256x4096_S512x4096 : S2x256x4096.ShapeCasts S512x4096
  shapeCasts_S512x8192_S2x256x8192 : S512x8192.ShapeCasts S2x256x8192
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  gather_S65536_S8192x4096x1_S8192x4096_n_0_n_n_0_2_1_wf : GatherDims.WF S65536 S8192x4096x1 S8192x4096 [] [0] [] [0] [] 2 ![1]
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x8192.size a
  hwx0_1 : ∀ i : grid0.Coords, EltTy.bits .bf16 = 32 ∨ (Rect.block (s := S4096x8192) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x8192.size a
  hwx0_2 : ∀ i : grid0.Coords, EltTy.bits .f32 = 32 ∨ (Rect.block (s := S512x8192) S512x1024.size (cc0_transform_2 i) (hinb0_2 i)).WholeWords (EltTy.packing .f32)

variable [Facts₀]

def gather_S65536_S8192x4096x1_S8192x4096_n_0_n_n_0_2_1 : GatherDims S65536 S8192x4096x1 S8192x4096 where
  offsetDims := []
  collapsedSliceDims := [0]
  operandBatchingDims := []
  startIndicesBatchingDims := []
  startIndexMap := [0]
  indexVectorDim := 2
  sliceSizes := ![1]
  wf := gather_S65536_S8192x4096x1_S8192x4096_n_0_n_n_0_2_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_call0_v15) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x256x4096 : Shape := ⟨3, ![2, 256, 4096]⟩
abbrev S8192x4096 : Shape := ⟨2, ![8192, 4096]⟩
abbrev S8192x1 : Shape := ⟨2, ![8192, 1]⟩
abbrev S65536 : Shape := ⟨1, ![65536]⟩
abbrev S_ : Shape := ⟨0, ![]⟩
abbrev S8192x4096x1 : Shape := ⟨3, ![8192, 4096, 1]⟩
abbrev S2x256x8192 : Shape := ⟨3, ![2, 256, 8192]⟩

abbrev nBuf : Space → Nat
  | .hbm => 21
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S8192x4096, .i32⟩
  | .hbm, ⟨2, _⟩ => ⟨S8192x4096, .i32⟩
  | .hbm, ⟨3, _⟩ => ⟨S8192x1, .f32⟩
  | .hbm, ⟨4, _⟩ => ⟨S65536, .f32⟩
  | .hbm, ⟨5, _⟩ => ⟨S_, .i32⟩
  | .hbm, ⟨6, _⟩ => ⟨S8192x4096, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i1⟩
  | .hbm, ⟨12, _⟩ => ⟨S_, .i32⟩
  | .hbm, ⟨13, _⟩ => ⟨S8192x4096, .i32⟩
  | .hbm, ⟨14, _⟩ => ⟨S8192x4096, .i32⟩
  | .hbm, ⟨15, _⟩ => ⟨S8192x4096, .i32⟩
  | .hbm, ⟨16, _⟩ => ⟨S8192x4096x1, .i32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S2x256x8192, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  bcast_S8192x1_S8192x4096_0_1 : S8192x1.BroadcastsInDim S8192x4096 (![0, 1] : Fin 2 → Fin S8192x4096.rank)
  gather_S65536_S8192x4096x1_S8192x4096_n_0_n_n_0_2_1_wf : GatherDims.WF S65536 S8192x4096x1 S8192x4096 [] [0] [] [0] [] 2 ![1]
  dot_S2x256x4096_S8192x4096_S2x256x8192_2_1_01_0_n_n_wf : DotDims.WF S2x256x4096 S8192x4096 S2x256x8192 [2] [1] [0, 1] [0] [] []

variable [Facts₀]

def gather_S65536_S8192x4096x1_S8192x4096_n_0_n_n_0_2_1 : GatherDims S65536 S8192x4096x1 S8192x4096 where
  offsetDims := []
  collapsedSliceDims := [0]
  operandBatchingDims := []
  startIndicesBatchingDims := []
  startIndexMap := [0]
  indexVectorDim := 2
  sliceSizes := ![1]
  wf := gather_S65536_S8192x4096x1_S8192x4096_n_0_n_n_0_2_1_wf
def dot_S2x256x4096_S8192x4096_S2x256x8192_2_1_01_0_n_n : DotDims S2x256x4096 S8192x4096 S2x256x8192 where
  lhsContracting := [2]
  rhsContracting := [1]
  lhsNonContracting := [0, 1]
  rhsNonContracting := [0]
  lhsBatch := []
  rhsBatch := []
  wf := dot_S2x256x4096_S8192x4096_S2x256x8192_2_1_01_0_n_n_wf

class Facts : Prop extends Facts₀ where

variable [Facts]
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.BodyProduct.lean ====
/-
  What the kernel body stores, at an index.

  The body loads its whole activation block x0 (512 × 4096) and its whole weight block x1 (4096 × 1024), multiplies
  them on the matrix unit into a zero accumulator, and stores the 512 × 1024 product.  On the extended reals entry (p, q)
  of what it stores is Σ_{k < 4096} x0(p, k) · x1(k, q): the two shape casts are between equal shapes and change
  nothing, the accumulator is the zero word, and the dimension numbers are those of a plain M×K by K×N product.
-/
import proofs.«161850_j50663434223826_2_alg».proof.Proof.Gen.KernelIdeal.Skeleton
import proofs.«161850_j50663434223826_2_alg».proof.Proof.LibPlainDot
import Idealize.ShloMosaic.Lib.Pipeline.Value

noncomputable section

namespace Cert.KernelIdeal.Body

open Idealize.ShloMosaic Idealize.ShloMosaic.ValueIdx Cert.KernelIdeal Cert.KernelIdeal.Gen

/-- The body's stored value at (p, q): row p of the activation block against column q of the weight block. -/
theorem stored_apply (x0 : Vec Ideal S512x4096 .bf16) (x1 : Vec Ideal S4096x1024 .bf16) (p : Fin 512) (q : Fin 1024) :
    k0_pay1 (F := Ideal) x0 x1 (ix2 p q) = ∑ k : Fin 4096, x0 (ix2 p k) * x1 (ix2 k q) := by
  unfold k0_pay1
  show matmul (F := Ideal) dot_S512x4096_S4096x1024_S512x1024_1_0_0_1_n_n none
      (shapeCast S512x4096 x0 shapeCasts_S512x4096_S512x4096) (shapeCast S4096x1024 x1 shapeCasts_S4096x1024_S4096x1024)
      (constant S512x1024 .f32 0x00000000#32) (ix2 p q) = _
  rw [shapeCast_self, shapeCast_self]
  exact Cert.LibPlainDot.matmul_plain 512 4096 1024 none x0 x1 (ix2 p q)

end Cert.KernelIdeal.Body

end
-- ==== Proof.LinearSpec.lean ====
/-
  The specification: a linear layer with a row-scaled weight matrix.

  For activations x of shape [2, 256, 4096] and a weight matrix w of shape [8192, 4096] (row o holds the weights of
  output feature o), the result has entry (b, s, o) = Σ_{k < 4096} x(b, s, k) · w(o, k), on the extended reals.

  The same numbers arise from the activations flattened to 512 rows (row 256·b + s) times the weights stored K-major
  (entry (k, o) of the K-major matrix is w(o, k)): entry (r, o) of that 512 × 8192 product is Σ_k X(r, k) · Wkn(k, o).
  Both sums run over k in the same order with the same factors, so no law beyond rewriting the factors is needed, and
  in particular nothing here depends on the entries being finite.
-/
import Idealize.ShloMosaic.PureOps.Ideal
import Idealize.ShloMosaic.Lib.ValueIdx

noncomputable section

namespace Cert.LinearSpec

open Idealize.ShloMosaic Idealize.ShloMosaic.ValueIdx

/-- The linear layer: entry (b, s, o) is the sum over k of x(b, s, k) · w(o, k). -/
def linear (x : (⟨3, ![2, 256, 4096]⟩ : Shape).Idx → EReal) (w : (⟨2, ![8192, 4096]⟩ : Shape).Idx → EReal) :
    (⟨3, ![2, 256, 8192]⟩ : Shape).Idx → EReal :=
  fun i => ∑ k : Fin 4096, x (ix3 (i 0) (i 1) k) * w (ix2 (i 2) k)

theorem linear_apply (x : (⟨3, ![2, 256, 4096]⟩ : Shape).Idx → EReal) (w : (⟨2, ![8192, 4096]⟩ : Shape).Idx → EReal)
    (b : Fin 2) (s : Fin 256) (o : Fin 8192) :
    linear x w (ix3 b s o) = ∑ k : Fin 4096, x (ix3 b s k) * w (ix2 o k) := rfl

/-- The flattened product: entry (r, o) is the sum over k of X(r, k) · Wkn(k, o), the weights K-major. -/
def product (X : (⟨2, ![512, 4096]⟩ : Shape).Idx → EReal) (Wkn : (⟨2, ![4096, 8192]⟩ : Shape).Idx → EReal) :
    (⟨2, ![512, 8192]⟩ : Shape).Idx → EReal :=
  fun i => ∑ k : Fin 4096, X (ix2 (i 0) k) * Wkn (ix2 k (i 1))

theorem product_apply (X : (⟨2, ![512, 4096]⟩ : Shape).Idx → EReal) (Wkn : (⟨2, ![4096, 8192]⟩ : Shape).Idx → EReal)
    (r : Fin 512) (o : Fin 8192) :
    product X Wkn (ix2 r o) = ∑ k : Fin 4096, X (ix2 r k) * Wkn (ix2 k o) := rfl

/-- If the flattened activations hold x(b, s, ·) in row 256·b + s and the K-major weights hold w(o, k) at (k, o), the
    flattened product at (256·b + s, o) is the linear layer at (b, s, o). -/
theorem product_eq_linear (x : (⟨3, ![2, 256, 4096]⟩ : Shape).Idx → EReal) (w : (⟨2, ![8192, 4096]⟩ : Shape).Idx → EReal)
    (X : (⟨2, ![512, 4096]⟩ : Shape).Idx → EReal) (Wkn : (⟨2, ![4096, 8192]⟩ : Shape).Idx → EReal)
    (hX : ∀ (b : Fin 2) (s : Fin 256) (r : Fin 512) (k : Fin 4096), r.val = b.val * 256 + s.val → X (ix2 r k) = x (ix3 b s k))
    (hW : ∀ (o : Fin 8192) (k : Fin 4096), Wkn (ix2 k o) = w (ix2 o k))
    (b : Fin 2) (s : Fin 256) (o : Fin 8192) (r : Fin 512) (hr : r.val = b.val * 256 + s.val) :
    product X Wkn (ix2 r o) = linear x w (ix3 b s o) := by
  rw [product_apply, linear_apply]
  refine Finset.sum_congr rfl fun k _ => ?_
  rw [hX b s r k hr, hW o k]

end Cert.LinearSpec

end
-- ==== Proof.OutputArray.lean ====
/-
  The product array after the region.

  The grid has 1 × 8 points.  Point t works on column block n(t) of the result: it reads ALL 512 rows of the activation
  array X (block (0, 0), the whole array), the 4096 × 1024 block (0, n) of the K-major weight array Wkn (columns
  1024·n … 1024·n + 1023), and writes back the 512 × 1024 block (0, n) of the result.  What it writes at (p, q) is
  Σ_k X(p, k) · Wkn(k, 1024·n + q), which is entry (p, 1024·n + q) of the one whole-array function
  (r, o) ↦ Σ_k X(r, k) · Wkn(k, o).  The eight column blocks tile the result (column o lies in block o / 1024), so after
  the last point the result array is that function.
-/
import proofs.«161850_j50663434223826_2_alg».proof.Proof.Gen.KernelIdeal.Frame
import proofs.«161850_j50663434223826_2_alg».proof.Proof.BodyProduct
import proofs.«161850_j50663434223826_2_alg».proof.Proof.LinearSpec
import Idealize.ShloMosaic.Lib.Pipeline.Value

noncomputable section

namespace Cert.KernelIdeal.Output

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The block indices at every point: the activation window stays at block (0, 0); the weight window is at row block 0
    and at the result's column block; the result window is at row block 0, and its column block is at most 7. -/
theorem block_indices : ∀ t : Fin cfg0.N,
    win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 7 :=
  (by decide +kernel : ∀ t : Fin grid0.N, _)

/-- Every column block of the result is some point's. -/
theorem every_column_block : ∀ n : Fin 8, ∃ t : Fin cfg0.N, win0_2.index t = ![0, n.val] :=
  (by decide +kernel : ∀ n : Fin 8, ∃ t : Fin grid0.N, win0_2.index t = ![0, n.val])

/-- The activation block at any point is the whole activation array. -/
theorem activation_block (c : Dev nD) (t : Fin cfg0.N) (p : Fin 512) (k : Fin 4096) :
    (iblk m c 0 t : Vec Ideal S512x4096 .bf16) (ix2 p k) = (V m c main_call0_v15 : S512x4096.Idx → EReal) (ix2 p k) := by
  obtain ⟨e00, e01, -⟩ := block_indices t
  unfold iblk
  rw [View.read_apply]
  show V m c main_call0_v15 _ = V m c main_call0_v15 _
  refine congrArg (V m c main_call0_v15) (funext fun a => Fin.ext ?_)
  match a with
  | ⟨0, _⟩ => show win0_0.index t (0 : Fin 2) * 512 + 1 * p.val = p.val; rw [e00]; omega
  | ⟨1, _⟩ => show win0_0.index t (1 : Fin 2) * 4096 + 1 * k.val = k.val; rw [e01]; omega

/-- The weight block at a point holds the columns of the result's column block: its entry (k, q) is the array's entry
    (k, o) for o = 1024 · (the result's column block) + q. -/
theorem weight_block (c : Dev nD) (t : Fin cfg0.N) (k : Fin 4096) (q : Fin 1024) (o : Fin 8192)
    (ho : o.val = win0_2.index t (1 : Fin 2) * 1024 + q.val) :
    (iblk m c 1 t : Vec Ideal S4096x1024 .bf16) (ix2 k q) = (V m c main_call0_v13 : S4096x8192.Idx → EReal) (ix2 k o) := by
  obtain ⟨-, -, e10, e11, -, -⟩ := block_indices t
  unfold iblk
  rw [View.read_apply]
  show V m c main_call0_v13 _ = V m c main_call0_v13 _
  refine congrArg (V m c main_call0_v13) (funext fun a => Fin.ext ?_)
  match a with
  | ⟨0, _⟩ => show win0_1.index t (0 : Fin 2) * 4096 + 1 * k.val = k.val; rw [e10]; omega
  | ⟨1, _⟩ => show win0_1.index t (1 : Fin 2) * 1024 + 1 * q.val = o.val; rw [e11, ho]; omega

/-- WHAT POINT t WRITES BACK is its block of the whole-array product of the two launched arrays. -/
theorem flushed_eq (c : Dev nD) (t : Fin cfg0.N) :
    (dats m 0 c).flushed 2 t = ((cfg0.win 2).blk t).view.read (Elt Ideal)
      (Cert.LinearSpec.product (V m c main_call0_v15 : S512x4096.Idx → EReal) (V m c main_call0_v13 : S4096x8192.Idx → EReal)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S4096x1024) zero_offsets]
  obtain ⟨-, -, -, -, e20, e21⟩ := block_indices t
  show (fun j : S512x1024.Idx => k0_pay1 (F := Ideal) (iblk m c 0 t) (iblk m c 1 t) j)
    = fun j : S512x1024.Idx => Cert.LinearSpec.product (V m c main_call0_v15 : S512x4096.Idx → EReal)
        (V m c main_call0_v13 : S4096x8192.Idx → EReal) (((cfg0.win 2).blk t).view.emb j)
  funext j
  obtain ⟨p, q, rfl⟩ : ∃ (p : Fin 512) (q : Fin 1024), j = ix2 p q := ⟨j 0, j 1, eq_ix2 j⟩
  have ho : win0_2.index t (1 : Fin 2) * 1024 + q.val < 8192 := by have := q.isLt; omega
  have hemb : ((cfg0.win 2).blk t).view.emb (ix2 p q)
      = ix2 p (⟨win0_2.index t (1 : Fin 2) * 1024 + q.val, ho⟩ : Fin 8192) := by
    funext a; apply Fin.ext
    match a with
    | ⟨0, _⟩ => show win0_2.index t (0 : Fin 2) * 512 + 1 * p.val = p.val; rw [e20]; omega
    | ⟨1, _⟩ => show win0_2.index t (1 : Fin 2) * 1024 + 1 * q.val = win0_2.index t (1 : Fin 2) * 1024 + q.val; omega
  refine (Cert.KernelIdeal.Body.stored_apply (iblk m c 0 t) (iblk m c 1 t) p q).trans ?_
  refine Eq.trans ?_ (congrArg (Cert.LinearSpec.product (V m c main_call0_v15 : S512x4096.Idx → EReal)
    (V m c main_call0_v13 : S4096x8192.Idx → EReal)) hemb.symm)
  refine Eq.trans ?_ (Cert.LinearSpec.product_apply (V m c main_call0_v15 : S512x4096.Idx → EReal)
    (V m c main_call0_v13 : S4096x8192.Idx → EReal) p ⟨win0_2.index t (1 : Fin 2) * 1024 + q.val, ho⟩).symm
  refine Finset.sum_congr rfl fun k _ => ?_
  exact congr (congrArg HMul.hMul (activation_block m c t p k))
    (weight_block m c t k q ⟨win0_2.index t (1 : Fin 2) * 1024 + q.val, ho⟩ rfl)

/-- An index of the result array is in point t's block iff each coordinate is in the block's range on its axis. -/
theorem mem_block (t : Fin cfg0.N) (i : S512x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_call0_v16).slice (win0_2.rect t)).set ↔ _
  rw [View.set_slice_whole, Rect.mem_set_unit]
  exact Iff.rfl

/-- The column blocks tile the result: entry (r, o) is in the block of the point at column block o / 1024. -/
theorem covered (i : S512x8192.Idx) :
    ∃ t : Fin cfg0.N, (cfg0.win 2).flush t = true ∧ i ∈ ((cfg0.win 2).blk t).view.set := by
  have hi0 : (i 0).val < 512 := (i 0).isLt
  have hi1 : (i 1).val < 8192 := (i 1).isLt
  obtain ⟨t, ht⟩ := every_column_block ⟨(i 1).val / 1024, by omega⟩
  have q0 : win0_2.index t (0 : Fin 2) = 0 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE RESULT ARRAY after the region is the whole-array product of the two launched arrays. -/
theorem product_array (c : Dev nD) :
    (dats m 0 c).arrAt 2 cfg0.N
      = Cert.LinearSpec.product (V m c main_call0_v15 : S512x4096.Idx → EReal) (V m c main_call0_v13 : S4096x8192.Idx → EReal) :=
  (dats m 0 c).arrAt_eq_of_cover 2 _ (fun t _ => flushed_eq m c t) covered

end Cert.KernelIdeal.Output

end
-- ==== Proof.EntryArrays.lean ====
/-
  The two arrays the matrix product is launched on, as the host lines before it leave them.

  * The weights.  Each entry (o, k) of the dequantized weight matrix is a table entry times the row's scale:
    lut[c(o, k)] · scale(o), where c = 256 · base + fine is the two-level code, wrapped by 65536 when negative, and the
    table lookup is the host's gather.  The product is launched on this matrix TRANSPOSED (K-major: entry (k, o) is
    the weight (o, k)) and narrowed to bf16, which on the extended reals changes no entry.
  * The activations.  The [2, 256, 4096] argument is flattened to 512 rows, row 256·b + s holding x(b, s, ·), and
    narrowed to bf16, again changing no entry.
-/
import proofs.«161850_j50663434223826_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-- The dequantized weight matrix [8192, 4096] of the code arrays, the row scales and the table. -/
def weights (base fine : (⟨S8192x4096, .i32⟩ : BufTy).Contents (Elt F)) (scale : (⟨S8192x1, .f32⟩ : BufTy).Contents (Elt F))
    (lut : (⟨S65536, .f32⟩ : BufTy).Contents (Elt F)) : (⟨S8192x4096, .f32⟩ : BufTy).Contents (Elt F) :=
  mulf (Host.gather gather_S65536_S8192x4096x1_S8192x4096_n_0_n_n_0_2_1 lut
      (broadcastInDim S8192x4096x1 ![0, 1] bcast_S8192x4096_S8192x4096x1_0_1
        (select (cmpi .slt (addi (muli base (broadcastInDim S8192x4096 ![] bcast_S_S8192x4096 (constantI S_ 32 256#32))) fine)
            (broadcastInDim S8192x4096 ![] bcast_S_S8192x4096 (constantI S_ 32 0#32)))
          (addi (addi (muli base (broadcastInDim S8192x4096 ![] bcast_S_S8192x4096 (constantI S_ 32 256#32))) fine)
            (broadcastInDim S8192x4096 ![] bcast_S_S8192x4096 (constantI S_ 32 65536#32)))
          (addi (muli base (broadcastInDim S8192x4096 ![] bcast_S_S8192x4096 (constantI S_ 32 256#32))) fine))))
    (broadcastInDim S8192x4096 ![0, 1] bcast_S8192x1_S8192x4096_0_1 scale)

variable (m : (ℓ : Loc nD τ sig) → Buf (Elt F) ℓ)

/-- The product's right operand as launched: the weights transposed, then narrowed. -/
theorem weights_launched (c : Dev nD) :
    V m c main_call0_v13 = truncf .bf16 (transpose S4096x8192 [1, 0]
      (weights (m ((c : Thread nD τ).loc main_arg1)) (m ((c : Thread nD τ).loc main_arg2)) (m ((c : Thread nD τ).loc main_arg3)) (m ((c : Thread nD τ).loc main_arg4)))
      transposes_S8192x4096_S4096x8192_1_0) bitsLt_bf16_f32 := by
  show StableHlo.after hostOps0 (fun b => m (c, b)) (Proc.devRef .tc main_call0_v13) = _
  after_results
  rfl

/-- The product's left operand as launched: the activations flattened, then narrowed. -/
theorem activations_launched (c : Dev nD) :
    V m c main_call0_v15 = truncf .bf16 (shapeCast S512x4096 (m ((c : Thread nD τ).loc main_arg0)) shapeCasts_S2x256x4096_S512x4096) bitsLt_bf16_f32 := by
  show StableHlo.after hostOps0 (fun b => m (c, b)) (Proc.devRef .tc main_call0_v15) = _
  after_results
  rfl

/-! ## The launched arrays on the extended reals, entry by entry -/

variable (mI : (ℓ : Loc nD τ sig) → Buf (Elt Ideal) ℓ)

/-- Entry (k, o) of the product's right operand is the weight (o, k): a transpose moves it, narrowing keeps it. -/
theorem weights_launched_apply (c : Dev nD) (k : Fin 4096) (o : Fin 8192) :
    (V mI c main_call0_v13 : S4096x8192.Idx → EReal) (ix2 k o)
      = (weights (F := Ideal) (mI ((c : Thread nD τ).loc main_arg1)) (mI ((c : Thread nD τ).loc main_arg2))
          (mI ((c : Thread nD τ).loc main_arg3)) (mI ((c : Thread nD τ).loc main_arg4)) : S8192x4096.Idx → EReal) (ix2 o k) := by
  rw [weights_launched]
  refine (truncf_apply _ bitsLt_bf16_f32 (ix2 k o)).trans ?_
  exact transpose_apply [1, 0] _ transposes_S8192x4096_S4096x8192_1_0 (ix2 k o) (ix2 o k)
    (fun b => match b with | ⟨0, _⟩ => rfl | ⟨1, _⟩ => rfl)

/-- Entry (r, k) of the product's left operand, for r = 256·b + s, is x(b, s, k): flattening keeps the row-major
    position, narrowing keeps the entry. -/
theorem activations_launched_apply (c : Dev nD) (b : Fin 2) (s : Fin 256) (r : Fin 512) (k : Fin 4096)
    (hr : r.val = b.val * 256 + s.val) :
    (V mI c main_call0_v15 : S512x4096.Idx → EReal) (ix2 r k)
      = (mI ((c : Thread nD τ).loc main_arg0) : S2x256x4096.Idx → EReal) (ix3 b s k) := by
  rw [activations_launched]
  refine (truncf_apply _ bitsLt_bf16_f32 (ix2 r k)).trans ?_
  refine shapeCast_apply (mI ((c : Thread nD τ).loc main_arg0) : S2x256x4096.Idx → EReal) shapeCasts_S2x256x4096_S512x4096
    (ix2 r k) (ix3 b s k) ?_
  show ((⟨3, ![2, 256, 4096]⟩ : Shape).rowMajor (ix3 b s k)).val = ((⟨2, ![512, 4096]⟩ : Shape).rowMajor (ix2 r k)).val
  rw [Shape.rowMajor_val_three, Shape.rowMajor_val_two]
  show (b.val * 256 + s.val) * 4096 + k.val = r.val * 4096 + k.val
  rw [hr]

end Cert.KernelIdeal.Entry

end
-- ==== Proof.KernelResult.lean ====
/-
  The kernel program's result, as one function of its arguments.

  After the region the host reshapes the 512 × 8192 product array to [2, 256, 8192]: entry (b, s, o) of the result is
  entry (256·b + s, o) of the product array (the same row-major position).  The product array is
  (r, o) ↦ Σ_k X(r, k) · Wkn(k, o) of the two launched arrays, X(256·b + s, k) = x(b, s, k) and Wkn(k, o) = w(o, k) for
  the dequantized weights w; so the result is the linear layer (b, s, o) ↦ Σ_k x(b, s, k) · w(o, k).
  The run is the generated frame run with its post read: the result buffer is not an array of the pipeline, so it ends
  as the host line after the region leaves it, and the arguments end as launched.
-/
import proofs.«161850_j50663434223826_2_alg».proof.Proof.Gen.KernelIdeal.Frame
import proofs.«161850_j50663434223826_2_alg».proof.Proof.OutputArray
import proofs.«161850_j50663434223826_2_alg».proof.Proof.EntryArrays
import proofs.«161850_j50663434223826_2_alg».proof.Proof.LinearSpec
import Idealize.ShloMosaic.Lib.StableHlo.Run
import Idealize.ShloMosaic.Lib.Pipeline.Value
import Idealize.ShloMosaic.Lib.ValueIdx

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The host line after the region leaves, in the result buffer, the product array reshaped. -/
theorem tail_reshape (c : Dev nD) :
    Pipeline.afterTail₀ cfgs (dats m) 0 (V0 m) [hostOps1] c main_v0
      = shapeCast S2x256x8192 ((dats m 0 c).arrAt 2 cfg0.N) shapeCasts_S512x8192_S2x256x8192 := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v16)
      = (dats m 0 c).arrAt 2 cfg0.N :=
    Pipeline.withArrays_arr spec0 launch0.win.arr_inj c (V0 m c) (fun w => (dats m 0 c).arrAt w cfg0.N) 2
  exact congrArg (fun A => shapeCast S2x256x8192 A shapeCasts_S512x8192_S2x256x8192) e

/-- The result buffer at (b, s, o): the linear layer of the launched activations and the dequantized weights. -/
theorem result_apply (c : Dev nD) (b : Fin 2) (s : Fin 256) (o : Fin 8192) :
    (Pipeline.afterTail₀ cfgs (dats m) 0 (V0 m) [hostOps1] c main_v0 : S2x256x8192.Idx → EReal) (ix3 b s o)
      = Cert.LinearSpec.linear (m ((c.tc : Thread nD τ).loc main_arg0))
          (Cert.KernelIdeal.Entry.weights (F := Ideal) (m ((c.tc : Thread nD τ).loc main_arg1)) (m ((c.tc : Thread nD τ).loc main_arg2))
            (m ((c.tc : Thread nD τ).loc main_arg3)) (m ((c.tc : Thread nD τ).loc main_arg4))) (ix3 b s o) := by
  have hr : b.val * 256 + s.val < 512 := by have := b.isLt; have := s.isLt; omega
  rw [tail_reshape, Cert.KernelIdeal.Output.product_array]
  refine (shapeCast_apply (Cert.LinearSpec.product (V m c main_call0_v15 : S512x4096.Idx → EReal) (V m c main_call0_v13 : S4096x8192.Idx → EReal))
    shapeCasts_S512x8192_S2x256x8192 (ix3 b s o) (ix2 (⟨b.val * 256 + s.val, hr⟩ : Fin 512) o) ?_).trans ?_
  · show ((⟨2, ![512, 8192]⟩ : Shape).rowMajor (ix2 (⟨b.val * 256 + s.val, hr⟩ : Fin 512) o)).val
      = ((⟨3, ![2, 256, 8192]⟩ : Shape).rowMajor (ix3 b s o)).val
    rw [Shape.rowMajor_val_two, Shape.rowMajor_val_three]
    rfl
  · exact Cert.LinearSpec.product_eq_linear _ _ _ _
      (fun b s r k hr => Cert.KernelIdeal.Entry.activations_launched_apply m c b s r k hr)
      (fun o k => Cert.KernelIdeal.Entry.weights_launched_apply m c k o) b s o ⟨b.val * 256 + s.val, hr⟩ rfl

/-- The result buffer after the host tail is the linear layer. -/
theorem result_eq (c : Dev nD) :
    Pipeline.afterTail₀ cfgs (dats m) 0 (V0 m) [hostOps1] c main_v0
      = Cert.LinearSpec.linear (m ((c.tc : Thread nD τ).loc main_arg0))
          (Cert.KernelIdeal.Entry.weights (F := Ideal) (m ((c.tc : Thread nD τ).loc main_arg1)) (m ((c.tc : Thread nD τ).loc main_arg2))
            (m ((c.tc : Thread nD τ).loc main_arg3)) (m ((c.tc : Thread nD τ).loc main_arg4))) :=
  funext fun (i : S2x256x8192.Idx) => by
    rw [eq_ix3 i]
    exact result_apply m c (i 0) (i 1) (i 2)

/-- THE RUN, READ: every weakly fair execution of the kernel program terminates with the result buffer at the linear
    layer of the launched activations and dequantized weights, and the five arguments as launched. -/
theorem run : θ_run defs (onTc (τ := τ) (main (F := Ideal))) ⟨m, fun _ => 0, ρ⟩ (fun r => ∀ c : Dev nD,
      r.2.mem ((c.tc : Thread nD τ).loc main_v0)
        = Cert.LinearSpec.linear (m ((c.tc : Thread nD τ).loc main_arg0))
            (Cert.KernelIdeal.Entry.weights (F := Ideal) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.ReferenceLinear.lean ====
/-
  The reference's result is the linear layer of its activations and its dequantized weights.

  The reference contracts the last axis of x [2, 256, 4096] with the last axis of the weight matrix [8192, 4096]:
  entry (b, s, o) of its result is Σ_k x(b, s, k) · w(o, k), where w is the stage that multiplies the gathered table
  entries by the row scales.  The left factor is read at (b, s, k) and the right at (o, k).
-/
import proofs.«161850_j50663434223826_2_alg».proof.Proof.Gen.ReferenceIdeal.Read
import proofs.«161850_j50663434223826_2_alg».proof.Proof.LinearSpec

noncomputable section

namespace Cert.ReferenceIdeal.Linear

open Idealize.ShloMosaic Idealize.ShloMosaic.ValueIdx Cert.ReferenceIdeal Cert.ReferenceIdeal.Read

/-- The contraction reads the activations at (b, s, k). -/
theorem left_index (i : S2x256x8192.Idx) (k : Fin 4096) : lidx_main_v12 i k = ix3 (i 0) (i 1) k :=
  funext fun a => Fin.ext (by match a with | ⟨0, _⟩ => rfl | ⟨1, _⟩ => rfl | ⟨2, _⟩ => rfl)

/-- The contraction reads the weights at (o, k). -/
theorem right_index (i : S2x256x8192.Idx) (k : Fin 4096) : ridx_main_v12 i k = ix2 (i 2) k :=
  funext fun a => Fin.ext (by match a with | ⟨0, _⟩ => rfl | ⟨1, _⟩ => rfl)

/-- The reference's result stage is the linear layer of x and the weight stage. -/
theorem result_eq (x0 : (⟨S2x256x4096, .f32⟩ : BufTy).Contents (Elt Ideal)) (x1 x2 : (⟨S8192x4096, .i32⟩ : BufTy).Contents (Elt Ideal))
    (x3 : (⟨S8192x1, .f32⟩ : BufTy).Contents (Elt Ideal)) (x4 : (⟨S65536, .f32⟩ : BufTy).Contents (Elt Ideal)) :
    val_main_v12 (F := Ideal) x0 x1 x2 x3 x4 = Cert.LinearSpec.linear x0 (val_main_v11 (F := Ideal) x1 x2 x3 x4) := by
  funext i
  rw [val_main_v12_apply]
  unfold Cert.LinearSpec.linear
  refine Finset.sum_congr rfl fun k _ => ?_
  rw [left_index, right_index]
  rfl

end Cert.ReferenceIdeal.Linear

end
-- ==== Proof.lean ====
/-
  A two-level table-dequantized linear layer: a tiled matrix-unit kernel against `einsum('bsi,oi->bso')`.

  Both programs first build the same weight matrix w [8192, 4096] from the integer code arrays, the row scales and the
  65536-entry table: w(o, k) = lut[c(o, k)] · scale(o) with c = 256 · base + fine (wrapped by 65536 when negative) — the
  same operations with the same constants in the same order, so the two weight terms are one term.

  The reference then contracts x [2, 256, 4096] with w over the last axis of each:
      out(b, s, o) = Σ_{k < 4096} x(b, s, k) · w(o, k).
  The kernel program flattens x to 512 rows, stores w transposed (K-major), narrows both to bf16 (no change on the
  extended reals), multiplies them on the matrix unit one 1024-column block per grid point into a zero accumulator,
  and reshapes the 512 × 8192 product back to [2, 256, 8192].  Entry (256·b + s, o) of the product is
  Σ_k x(b, s, k) · w(o, k): the same sum, term by term and in the same order.  So the two results are one function of
  the arguments (`Cert.LinearSpec.linear`), and no step uses that the inputs are finite.

  The three frames: the two kernel programs' are the generated frame certificates; the reference has no kernel and its
  frame is its generated run with the result forgotten.  The idealization rewrote nothing, so nothing is to be
  preserved beyond the program text itself.
-/
import proofs.«161850_j50663434223826_2_alg».proof.Defs
import proofs.«161850_j50663434223826_2_alg».proof.Proof.Gen.Kernel
import proofs.«161850_j50663434223826_2_alg».proof.Proof.Gen.Kernel.Skeleton
import proofs.«161850_j50663434223826_2_alg».proof.Proof.Gen.Kernel.Launch
import proofs.«161850_j50663434223826_2_alg».proof.Proof.Gen.Kernel.Points
import proofs.«161850_j50663434223826_2_alg».proof.Proof.Gen.Kernel.Frame
import proofs.«161850_j50663434223826_2_alg».proof.Proof.Gen.KernelIdeal
import proofs.«161850_j50663434223826_2_alg».proof.Proof.Gen.KernelIdeal.Skeleton
import proofs.«161850_j50663434223826_2_alg».proof.Proof.Gen.KernelIdeal.Launch
import proofs.«161850_j50663434223826_2_alg».proof.Proof.Gen.KernelIdeal.Points
import proofs.«161850_j50663434223826_2_alg».proof.Proof.Gen.KernelIdeal.Frame
import proofs.«161850_j50663434223826_2_alg».proof.Proof.Gen.ReferenceIdeal
import proofs.«161850_j50663434223826_2_alg».proof.Proof.Gen.Pre_finite_inputs
import proofs.«161850_j50663434223826_2_alg».proof.Proof.Gen.ReferenceIdeal.Read
import proofs.«161850_j50663434223826_2_alg».proof.Proof.KernelResult
import proofs.«161850_j50663434223826_2_alg».proof.Proof.ReferenceLinear
import Idealize.ShloMosaic.Adequacy
import Idealize.ShloMosaic.Init

noncomputable section

namespace Cert.Proof

open Idealize.ShloMosaic Idealize.SL.Sem

/-- The kernel program's weight matrix and the reference's weight stage are the same term of the code arrays, the
    row scales and the table. -/
theorem weights_eq (base fine : (⟨Cert.KernelIdeal.S8192x4096, .i32⟩ : BufTy).Contents (Elt Ideal))
    (scale : (⟨Cert.KernelIdeal.S8192x1, .f32⟩ : BufTy).Contents (Elt Ideal)) (lut : (⟨Cert.KernelIdeal.S65536, .f32⟩ : BufTy).Contents (Elt Ideal)) :
    Cert.KernelIdeal.Entry.weights (F := Ideal) base fine scale lut
      = Cert.ReferenceIdeal.Read.val_main_v11 (F := Ideal) base fine scale lut := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the linear layer of the activations and the
    dequantized weights in their result buffers: the kernel program by its run read through the product array, the
    reference by its generated run, whose contraction is that sum and whose weight stage is the kernel's weight term. -/
theorem algebraic : Cert.algebraic_KernelIdeal_ReferenceIdeal := by
  intro m ρ m' ρ' _ hagree
  refine ⟨fun c => Cert.LinearSpec.linear
      (m ((c.tc : Thread Cert.KernelIdeal.nD Cert.KernelIdeal.τ).loc Cert.KernelIdeal.main_arg0))
      (Cert.KernelIdeal.Entry.weights (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4]
  exact (Cert.ReferenceIdeal.Read.val_main_v12_eq _ _ _ _ _).trans
    ((Cert.ReferenceIdeal.Linear.result_eq _ _ _ _ _).trans
      (congrArg (Cert.LinearSpec.linear _) (weights_eq _ _ _ _).symm))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
